-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4x256x512 : Shape := ⟨3, ![4, 256, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4x256x512 : S_.BroadcastsInDim S4x256x512 (![] : Fin 0 → Fin S4x256x512.rank)
  reducesTo_S4x256x512_S_d0_1_2 : S4x256x512.ReducesTo [0, 1, 2] S_

variable [Facts]

def fn {F : FTy → Type} [FloatOps F] (main_arg0 : FVec F S16384x512 .f32) (main_arg1 : FVec F S4x256x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4x256x512 .f32 := Host.absf main_arg1
  let main_cst_0 : FVec F S_ .f32 := constant S_ .f32 0x7F800000#32
  let main_v5 : FVec F S4x256x512 .f32 := broadcastInDim S4x256x512 ![] bcast_S_S4x256x512 main_cst_0
  let main_v6 : IVec S4x256x512 1 := cmpf .olt main_v4 main_v5
  let main_c_1 : IVec S_ 1 := constantI S_ 1 1#1
  let main_v7 : IVec S_ 1 := (fun x v => Host.reduce IntOp.andi x v reducesTo_S4x256x512_S_d0_1_2 h_S_) main_v6 main_c_1
  let main_v8 : IVec S_ 1 := andi main_v3 main_v7
  main_v8
-- ==== Kernel.lean ====
abbrev S16384x512 : Shape := ⟨2, ![16384, 512]⟩
abbrev S4x256x512 : Shape := ⟨3, ![4, 256, 512]⟩
abbrev S4x16384x256 : Shape := ⟨3, ![4, 16384, 256]⟩
abbrev S4096x512 : Shape := ⟨2, ![4096, 512]⟩
abbrev S4x4096x256 : Shape := ⟨3, ![4, 4096, 256]⟩
abbrev S1x256x512 : Shape := ⟨3, ![1, 256, 512]⟩
abbrev S256x512 : Shape := ⟨2, ![256, 512]⟩
abbrev S4096x256 : Shape := ⟨2, ![4096, 256]⟩
abbrev S1x4096x256 : Shape := ⟨3, ![1, 4096, 256]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S4x256x512, .f32⟩
  | .hbm, ⟨2, _⟩ => ⟨S4x16384x256, .f32⟩
  | .local _ .vmem, ⟨0, _⟩ => ⟨S4096x512, .f32⟩
  | .local _ .vmem, ⟨1, _⟩ => ⟨S4096x512, .f32⟩
  | .local _ .vmem, ⟨2, _⟩ => ⟨S4x256x512, .f32⟩
  | .local _ .vmem, ⟨3, _⟩ => ⟨S4x4096x256, .f32⟩
  | .local _ .vmem, ⟨4, _⟩ => ⟨S4x4096x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x512_S4096x512_0_0 : ∀ a, (![0, 0] : Fin 2 → Nat) a + S4096x512.size a ≤ S4096x512.size a
  h_S4096x512 : 0 < S4096x512.numel
  inb_S4x256x512_S1x256x512_0_0_0 : ∀ a, (![0, 0, 0] : Fin 3 → Nat) a + S1x256x512.size a ≤ S4x256x512.size a
  h_S1x256x512 : 0 < S1x256x512.numel
  shapeCasts_S1x256x512_S256x512 : S1x256x512.ShapeCasts S256x512
  inb_S4x4096x256_S1x4096x256_0_0_0 : ∀ a, (![0, 0, 0] : Fin 3 → Nat) a + S1x4096x256.size a ≤ S4x4096x256.size a
  h_S1x4096x256 : 0 < S1x4096x256.numel
  shapeCasts_S1x4096x256_S4096x256 : S1x4096x256.ShapeCasts S4096x256
  shapeCasts_S4096x256_S1x4096x256 : S4096x256.ShapeCasts S1x4096x256
  inb_S4x256x512_S1x256x512_1_0_0 : ∀ a, (![1, 0, 0] : Fin 3 → Nat) a + S1x256x512.size a ≤ S4x256x512.size a
  inb_S4x4096x256_S1x4096x256_1_0_0 : ∀ a, (![1, 0, 0] : Fin 3 → Nat) a + S1x4096x256.size a ≤ S4x4096x256.size a
  inb_S4x256x512_S1x256x512_2_0_0 : ∀ a, (![2, 0, 0] : Fin 3 → Nat) a + S1x256x512.size a ≤ S4x256x512.size a
  inb_S4x4096x256_S1x4096x256_2_0_0 : ∀ a, (![2, 0, 0] : Fin 3 → Nat) a + S1x4096x256.size a ≤ S4x4096x256.size a
  inb_S4x256x512_S1x256x512_3_0_0 : ∀ a, (![3, 0, 0] : Fin 3 → Nat) a + S1x256x512.size a ≤ S4x256x512.size a
  inb_S4x4096x256_S1x4096x256_3_0_0 : ∀ a, (![3, 0, 0] : Fin 3 → Nat) a + S1x4096x256.size a ≤ S4x4096x256.size a
  dot_S4096x512_S256x512_S4096x256_1_1_0_0_n_n_wf : DotDims.WF S4096x512 S256x512 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S16384x512.size a
  hwx0_0 : ∀ i : grid0.Coords, EltTy.bits .f32 = 32 ∨ (Rect.block (s := S16384x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256x512.size a ≤ S4x256x512.size a
  hwx0_1 : ∀ i : grid0.Coords, EltTy.bits .f32 = 32 ∨ (Rect.block (s := S4x256x512) S4x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x4096x256.size a ≤ S4x16384x256.size a
  hwx0_2 : ∀ i : grid0.Coords, EltTy.bits .f32 = 32 ∨ (Rect.block (s := S4x16384x256) S4x4096x256.size (cc0_transform_2 i) (hinb0_2 i)).WholeWords (EltTy.packing .f32)

variable [Facts₀]

def dot_S4096x512_S256x512_S4096x256_1_1_0_0_n_n : DotDims S4096x512 S256x512 S4096x256 where
  lhsContracting := [1]
  rhsContracting := [1]
  lhsNonContracting := [0]
  rhsNonContracting := [0]
  lhsBatch := []
  rhsBatch := []
  wf := dot_S4096x512_S256x512_S4096x256_1_1_0_0_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x512 : Shape := ⟨2, ![16384, 512]⟩
abbrev S4x256x512 : Shape := ⟨3, ![4, 256, 512]⟩
abbrev S4x256x16384 : Shape := ⟨3, ![4, 256, 16384]⟩
abbrev S4x16384x256 : Shape := ⟨3, ![4, 16384, 256]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4x256x512, .f32⟩
  | .hbm, ⟨2, _⟩ => ⟨S4x256x16384, .f32⟩
  | .hbm, ⟨3, _⟩ => ⟨S4x16384x256, .f32⟩
  | .hbm, ⟨4, _⟩ => ⟨S_, .f32⟩
  | .hbm, ⟨5, _⟩ => ⟨S4x16384x256, .f32⟩
  | .hbm, ⟨6, _⟩ => ⟨S4x16384x256, .i1⟩
  | .hbm, ⟨7, _⟩ => ⟨S_, .f32⟩
  | .hbm, ⟨8, _⟩ => ⟨S_, .f32⟩
  | .hbm, ⟨9, _⟩ => ⟨S4x16384x256, .f32⟩
  | .hbm, ⟨10, _⟩ => ⟨S4x16384x256, .f32⟩
  | .hbm, ⟨11, _⟩ => ⟨S4x16384x256, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩

abbrev nD : Nat := 1
abbrev τ : Topo := Topo.v7x

variable {F : FTy → Type} [FloatOps F]

class Facts₀ : Prop where
  transposes_S4x256x16384_S4x16384x256_0_2_1 : S4x256x16384.Transposes [0, 2, 1] S4x16384x256
  bcast_S_S4x16384x256 : S_.BroadcastsInDim S4x16384x256 (![] : Fin 0 → Fin S4x16384x256.rank)
  dot_S4x256x512_S16384x512_S4x256x16384_2_1_01_0_n_n_wf : DotDims.WF S4x256x512 S16384x512 S4x256x16384 [2] [1] [0, 1] [0] [] []

variable [Facts₀]

def dot_S4x256x512_S16384x512_S4x256x16384_2_1_01_0_n_n : DotDims S4x256x512 S16384x512 S4x256x16384 where
  lhsContracting := [2]
  rhsContracting := [1]
  lhsNonContracting := [0, 1]
  rhsNonContracting := [0]
  lhsBatch := []
  rhsBatch := []
  wf := dot_S4x256x512_S16384x512_S4x256x16384_2_1_01_0_n_n_wf

class Facts : Prop extends Facts₀ where

variable [Facts]
-- ==== Proof.Codes.lean ====
/-
  The hash codes as one function of the two argument arrays.

  For points x : [16384, 512] and hyperplanes p : [4, 256, 512], the code of point n against hyperplane h of table t is
  the sign test of the projection  s(t, n, h) = Σ_d x(n, d) · p(t, h, d):  the code is 0 where s < 0 and 1 elsewhere.
  Over the extended reals the projection is a finite sum, so it is defined for every input (an infinite term makes the
  sum infinite, never undefined), and the comparison with 0 is the linear order's.
-/
import Idealize.ShloMosaic.PureOps.Ideal
import Idealize.ShloMosaic.Lib.ValueIdx

noncomputable section

open scoped BigOperators

namespace Cert.Lsh

open Idealize.ShloMosaic Idealize.ShloMosaic.ValueIdx

/-- The hash bit of a projection `s`: 0 where `s < 0`, otherwise 1 (the two float words are those of 0.0 and 1.0). -/
def bit (s : Ideal .f32) : Ideal .f32 :=
  Scalar.select (FloatOps.cmpf (F := Ideal) .olt s (FloatOps.ofBits (F := Ideal) .f32 0x00000000#32))
    (FloatOps.ofBits (F := Ideal) .f32 0x00000000#32) (FloatOps.ofBits (F := Ideal) .f32 0x3F800000#32)

/-- The projection of point `n` on hyperplane `h` of table `t`: the sum over the 512 coordinates of the products. -/
def proj (x : FVec Ideal ⟨2, ![16384, 512]⟩ .f32) (p : FVec Ideal ⟨3, ![4, 256, 512]⟩ .f32)
    (t : Fin 4) (n : Fin 16384) (h : Fin 256) : Ideal .f32 :=
  ∑ d : Fin 512, x (ix2 n d) * p (ix3 t h d)

/-- The whole code array [4, 16384, 256]: entry (t, n, h) is the hash bit of the projection of point `n` on hyperplane
    `h` of table `t`. -/
def codes (x : FVec Ideal ⟨2, ![16384, 512]⟩ .f32) (p : FVec Ideal ⟨3, ![4, 256, 512]⟩ .f32) :
    FVec Ideal ⟨3, ![4, 16384, 256]⟩ .f32 :=
  fun i => bit (proj x p (i 0) (i 1) (i 2))

end Cert.Lsh

end
-- ==== Proof.SlabBits.lean ====
/-
  One table's slab of codes, read at an index.

  At a grid point the body holds a block of 4096 points, x : [4096, 512], and for each table t the slab of its
  hyperplanes, w : [1, 256, 512]. It drops the slab's unit axis, multiplies x by the transposed slab into a zero
  accumulator (both operands contracted over their last axis), compares the product with 0, selects 0 or 1, and adds
  a unit axis back. So entry (0, r, h) of the stored slab is the hash bit of  Σ_d x(r, d) · w(0, h, d).
  The body computes the four tables by the same operations: the four stored values are one function of (x, w).
-/
import proofs.«117350_g42193758716157_cont_8to1_b_654_17_alg».proof.Proof.Gen.KernelIdeal.Skeleton
import proofs.«117350_g42193758716157_cont_8to1_b_654_17_alg».proof.Proof.Codes
import Idealize.ShloMosaic.Lib.Pipeline.Value
import Idealize.ShloMosaic.Lib.ValueIdx
import Idealize.ShloMosaic.PureOps.Ideal.Laws

noncomputable section

open scoped BigOperators

namespace Cert.Lsh.Kernel

open Cert.KernelIdeal Cert.KernelIdeal.Gen
open Idealize.ShloMosaic Idealize.ShloMosaic.ValueIdx

/-! ## The two unit-axis casts at an index -/

/-- A [4096, 256] value stored as a [1, 4096, 256] slab reads (u, r, h) at (r, h). -/
theorem addUnit_entry {α : Type} (v : S4096x256.Idx → α) (u : Fin 1) (r : Fin 4096) (h : Fin 256) :
    shapeCast S1x4096x256 v shapeCasts_S4096x256_S1x4096x256 (ix3 u r h) = v (ix2 r h) := by
  rw [shapeCast_addUnit_apply ![4096, 256] v shapeCasts_S4096x256_S1x4096x256 (ix3 u r h)]
  exact congrArg v (funext fun a => Fin.ext (by match a with | ⟨0, _⟩ => rfl | ⟨1, _⟩ => rfl))

/-- A [1, 256, 512] slab viewed as [256, 512] reads (h, d) at (0, h, d). -/
theorem dropUnit_entry {α : Type} (v : S1x256x512.Idx → α) (h : Fin 256) (d : Fin 512) :
    shapeCast S256x512 v shapeCasts_S1x256x512_S256x512 (ix2 h d) = v (ix3 (0 : Fin 1) h d) := by
  rw [shapeCast_dropUnit_apply ![256, 512] v shapeCasts_S1x256x512_S256x512 (ix2 h d)]
  exact congrArg v (funext fun a => Fin.ext (by match a with | ⟨0, _⟩ => rfl | ⟨1, _⟩ => rfl | ⟨2, _⟩ => rfl))

/-! ## The product, both operands contracted over their last axis, as a sum -/

theorem lhs_free (j : S4096x256.Idx) (q : dot_S4096x512_S256x512_S4096x256_1_1_0_0_n_n.contr.Idx) : (dot_S4096x512_S256x512_S4096x256_1_1_0_0_n_n.lhsIdx j q 0).val = (j 0).val := by
  unfold DotDims.lhsIdx
  rw [dif_neg (show ¬(0 : Fin S4096x512.rank) ∈ dot_S4096x512_S256x512_S4096x256_1_1_0_0_n_n.lhsBatch by decide), dif_pos (show (0 : Fin S4096x512.rank) ∈ dot_S4096x512_S256x512_S4096x256_1_1_0_0_n_n.lhsNonContracting by decide)]
  rfl

theorem lhs_contracted (j : S4096x256.Idx) (q : dot_S4096x512_S256x512_S4096x256_1_1_0_0_n_n.contr.Idx) : (dot_S4096x512_S256x512_S4096x256_1_1_0_0_n_n.lhsIdx j q 1).val = (q ⟨0, by decide⟩).val :=
  dot_S4096x512_S256x512_S4096x256_1_1_0_0_n_n.lhsIdx_val_of_single rfl j q

theorem rhs_free (j : S4096x256.Idx) (q : dot_S4096x512_S256x512_S4096x256_1_1_0_0_n_n.contr.Idx) : (dot_S4096x512_S256x512_S4096x256_1_1_0_0_n_n.rhsIdx j q 0).val = (j 1).val := by
  unfold DotDims.rhsIdx
  rw [dif_neg (show ¬(0 : Fin S256x512.rank) ∈ dot_S4096x512_S256x512_S4096x256_1_1_0_0_n_n.rhsBatch by decide), dif_pos (show (0 : Fin S256x512.rank) ∈ dot_S4096x512_S256x512_S4096x256_1_1_0_0_n_n.rhsNonContracting by decide)]
  rfl

theorem rhs_contracted (j : S4096x256.Idx) (q : dot_S4096x512_S256x512_S4096x256_1_1_0_0_n_n.contr.Idx) : (dot_S4096x512_S256x512_S4096x256_1_1_0_0_n_n.rhsIdx j q 1).val = (q ⟨0, by decide⟩).val :=
  dot_S4096x512_S256x512_S4096x256_1_1_0_0_n_n.rhsIdx_val_of_single rfl j q

/-- Entry (r, h) of x · wᵀ accumulated into zeros is  Σ_d x(r, d) · w(h, d). -/
theorem product_entry (x : FVec Ideal S4096x512 .f32) (w : FVec Ideal S256x512 .f32) (r : Fin 4096) (h : Fin 256) :
    matmul (F := Ideal) dot_S4096x512_S256x512_S4096x256_1_1_0_0_n_n none x w (constant (F := Ideal) S4096x256 .f32 0x00000000#32) (ix2 r h)
      = ∑ d : Fin 512, x (ix2 r d) * w (ix2 h d) := by
  simp only [matmul]
  rw [Ideal.matmul_constant_zero_apply, ← Equiv.sum_comp (contrEquiv1 dot_S4096x512_S256x512_S4096x256_1_1_0_0_n_n 512 rfl rfl).symm]
  refine Finset.sum_congr rfl fun d _ => ?_
  have hd := contrEquiv1_symm_val dot_S4096x512_S256x512_S4096x256_1_1_0_0_n_n 512 rfl rfl d
  have el : dot_S4096x512_S256x512_S4096x256_1_1_0_0_n_n.lhsIdx (ix2 r h) ((contrEquiv1 dot_S4096x512_S256x512_S4096x256_1_1_0_0_n_n 512 rfl rfl).symm d) = ix2 r d := funext fun a => Fin.ext (by
    match a with
    | ⟨0, _⟩ => exact lhs_free _ _
    | ⟨1, _⟩ => exact (lhs_contracted _ _).trans hd)
  have er : dot_S4096x512_S256x512_S4096x256_1_1_0_0_n_n.rhsIdx (ix2 r h) ((contrEquiv1 dot_S4096x512_S256x512_S4096x256_1_1_0_0_n_n 512 rfl rfl).symm d) = ix2 h d := funext fun a => Fin.ext (by
    match a with
    | ⟨0, _⟩ => exact rhs_free _ _
    | ⟨1, _⟩ => exact (rhs_contracted _ _).trans hd)
  rw [el, er]

/-! ## The stored slab -/

/-- Entry (u, r, h) of the slab the body stores for a table is the hash bit of the projection of point `r` of the block
    on hyperplane `h` of that table's slab. -/
theorem slab_entry (x : Vec Ideal S4096x512 .f32) (w : Vec Ideal S1x256x512 .f32) (u : Fin 1) (r : Fin 4096) (h : Fin 256) :
    k0_pay3 (F := Ideal) x w (ix3 u r h) = Cert.Lsh.bit (∑ d : Fin 512, x (ix2 r d) * w (ix3 (0 : Fin 1) h d)) := by
  unfold k0_pay3
  rw [addUnit_entry, select_apply, cmpf_apply]
  simp only [broadcast_apply]
  rw [product_entry]
  simp only [dropUnit_entry]
  rfl

/-- The four tables' stores are the same function of the point block and the table's slab. -/
theorem table1_eq (x : Vec Ideal S4096x512 .f32) (w : Vec Ideal S1x256x512 .f32) : k0_pay4 (F := Ideal) x w = k0_pay3 x w := rfl
theorem table2_eq (x : Vec Ideal S4096x512 .f32) (w : Vec Ideal S1x256x512 .f32) :
    k0_pay1 (F := Ideal) (k0_pay5 x w) (Scalar.ofBits .f32 0x00000000#32) (Scalar.ofBits .f32 0x3F800000#32) = k0_pay3 x w := rfl
theorem table3_eq (x : Vec Ideal S4096x512 .f32) (w : Vec Ideal S1x256x512 .f32) : k0_pay2 (F := Ideal) x w = k0_pay3 x w := rfl

end Cert.Lsh.Kernel

end
-- ==== Proof.BlockCodes.lean ====
/-
  What the body leaves in the output block: the codes of the block's 4096 points against all four tables.

  The output block is [4, 4096, 256]. The body writes it as four slabs, table t at offset (t, 0, 0) with sizes
  [1, 4096, 256], and the slab of table t is computed from the whole point block and the hyperplane slab loaded at offset
  (t, 0, 0) of the hyperplane block. So entry (t, r, h) of the block, which lies in slab t at (0, r, h), is the hash bit of
  Σ_d x(r, d) · p(t, h, d): every slab is the restriction of ONE function of the block's index, and the four slabs
  cover the block.
-/
import proofs.«117350_g42193758716157_cont_8to1_b_654_17_alg».proof.Proof.Gen.KernelIdeal.Frame
import proofs.«117350_g42193758716157_cont_8to1_b_654_17_alg».proof.Proof.SlabBits

noncomputable section

open scoped BigOperators

namespace Cert.Lsh.Kernel

open Cert.KernelIdeal Cert.KernelIdeal.Gen
open Idealize.ShloMosaic Idealize.ShloMosaic.ValueIdx

/-- The codes of a block of 4096 points `x` against the hyperplanes `p`: entry (t, r, h) is the hash bit of the projection
    of point `r` on hyperplane `h` of table `t`. -/
def blockCodes (x : Vec Ideal S4096x512 .f32) (p : Vec Ideal S4x256x512 .f32) : Vec Ideal S4x4096x256 .f32 :=
  fun y => Cert.Lsh.bit (∑ d : Fin 512, x (ix2 (n0 := 4096) (n1 := 512) (y 1) d) * p (ix3 (n0 := 4) (n1 := 256) (n2 := 512) (y 0) (y 2) d))

/-- The slab stored at offset (t, 0, 0), computed from the hyperplane slab loaded at offset (t, 0, 0), is the restriction
    of `blockCodes` to that slab. -/
theorem slab_restricts (x : Vec Ideal S4096x512 .f32) (p : Vec Ideal S4x256x512 .f32) (t : Nat)
    (inbp : ∀ a, (![t, 0, 0] : Fin 3 → Nat) a + S1x256x512.size a ≤ S4x256x512.size a)
    (inbo : ∀ a, (![t, 0, 0] : Fin 3 → Nat) a + S1x4096x256.size a ≤ S4x4096x256.size a)
    (z : S1x4096x256.Idx) :
    k0_pay3 (F := Ideal) (View.ld x r0_0) (View.ld p (Rect.unit (s := S4x256x512) ![t, 0, 0] S1x256x512.size inbp)) z
      = blockCodes x p ((Rect.unit (s := S4x4096x256) ![t, 0, 0] S1x4096x256.size inbo).emb z) := by
  obtain ⟨u, r, h, rfl⟩ : ∃ (u : Fin 1) (r : Fin 4096) (h : Fin 256), z = ix3 u r h := ⟨z 0, z 1, z 2, eq_ix3 z⟩
  obtain rfl : u = 0 := Subsingleton.elim _ _
  rw [slab_entry]
  unfold blockCodes
  refine congrArg Cert.Lsh.bit (Finset.sum_congr rfl fun d _ => ?_)
  have ex : View.ld x r0_0 (ix2 r d)
      = x (ix2 (n0 := 4096) (n1 := 512) ((Rect.unit (s := S4x4096x256) ![t, 0, 0] S1x4096x256.size inbo).emb (ix3 (0 : Fin 1) r h) 1) d) :=
    congrArg x (funext fun a => Fin.ext (by
      match a with
      | ⟨0, _⟩ => show 0 + 1 * r.val = 0 + 1 * r.val; rfl
      | ⟨1, _⟩ => show 0 + 1 * d.val = d.val; omega))
  have ep : View.ld p (Rect.unit (s := S4x256x512) ![t, 0, 0] S1x256x512.size inbp) (ix3 (0 : Fin 1) h d)
      = p (ix3 (n0 := 4) (n1 := 256) (n2 := 512) ((Rect.unit (s := S4x4096x256) ![t, 0, 0] S1x4096x256.size inbo).emb (ix3 (0 : Fin 1) r h) 0)
          ((Rect.unit (s := S4x4096x256) ![t, 0, 0] S1x4096x256.size inbo).emb (ix3 (0 : Fin 1) r h) 2) d) :=
    congrArg p (funext fun a => Fin.ext (by
      match a with
      | ⟨0, _⟩ => show t + 1 * 0 = t + 1 * 0; rfl
      | ⟨1, _⟩ => show 0 + 1 * h.val = 0 + 1 * h.val; rfl
      | ⟨2, _⟩ => show 0 + 1 * d.val = d.val; omega))
  rw [ex, ep]

/-- After the body the output block holds the codes of the block's points against all four tables. -/
theorem body_result (x : Vec Ideal S4096x512 .f32) (p : Vec Ideal S4x256x512 .f32) :
    out0_2 (F := Ideal) x p = blockCodes x p := by
  funext y
  unfold out0_2
  refine View.canon_apply_of_pieces (blockCodes x p) _ ?_ y (cover0_2 _ _ _ _ y)
  intro pc hpc
  simp only [List.mem_cons, List.not_mem_nil, or_false] at hpc
  rcases hpc with rfl | rfl | rfl | rfl
  · intro z
    exact (congrFun (table3_eq _ _) z).trans (slab_restricts x p 3 inb_S4x256x512_S1x256x512_3_0_0 inb_S4x4096x256_S1x4096x256_3_0_0 z)
  · intro z
    exact (congrFun (table2_eq _ _) z).trans (slab_restricts x p 2 inb_S4x256x512_S1x256x512_2_0_0 inb_S4x4096x256_S1x4096x256_2_0_0 z)
  · intro z
    exact (congrFun (table1_eq _ _) z).trans (slab_restricts x p 1 inb_S4x256x512_S1x256x512_1_0_0 inb_S4x4096x256_S1x4096x256_1_0_0 z)
  · intro z
    exact slab_restricts x p 0 inb_S4x256x512_S1x256x512_0_0_0 inb_S4x4096x256_S1x4096x256_0_0_0 z

end Cert.Lsh.Kernel

end
-- ==== Proof.KernelCodes.lean ====
/-
  The kernel's result array is the code array of the specification.

  The grid has four points. Point t stages rows [4096·t, 4096·(t+1)) of the points (block index (t, 0)), the whole of
  the hyperplanes (block index (0, 0, 0)) and writes back the block with index (0, t, 0) of the result [4, 16384, 256],
  that is entries (·, 4096·t + r, ·). What it writes back is the codes of its 4096 points against all four tables, and
  the projection of point 4096·t + r only reads row 4096·t + r of the points: so the block written back is the
  restriction of the code array of the WHOLE arguments to that block. The four blocks cover the result (row n lies in
  the block of point n / 4096), hence the result array is the code array.
-/
import proofs.«117350_g42193758716157_cont_8to1_b_654_17_alg».proof.Proof.Gen.KernelIdeal.Value
import proofs.«117350_g42193758716157_cont_8to1_b_654_17_alg».proof.Proof.BlockCodes

noncomputable section

open scoped BigOperators

namespace Cert.Lsh.Kernel

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The block indices over the grid: the points move with the result along its row axis, everything else is at 0. -/
theorem index_facts : ∀ t : Fin cfg0.N,
    win0_0.index t (0 : Fin 2) = win0_2.index t (1 : Fin 3) ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (2 : Fin 3) = 0 :=
  (by decide +kernel : ∀ t : Fin grid0.N, _)

/-- Every row block of the result is some point's. -/
theorem index_onto : ∀ q : Fin 4, ∃ t : Fin cfg0.N, win0_2.index t = ![0, q.val, 0] :=
  (by decide +kernel : ∀ q : Fin 4, ∃ t : Fin grid0.N, win0_2.index t = ![0, q.val, 0])

/-- Codes of a block against codes of the whole arrays: equal at a pair of indices as soon as the block's point row is the
    array's row and the block's hyperplane is the array's. -/
theorem block_of_codes (X : FVec Ideal ⟨2, ![16384, 512]⟩ .f32) (P : FVec Ideal ⟨3, ![4, 256, 512]⟩ .f32)
    (x : Vec Ideal S4096x512 .f32) (p : Vec Ideal S4x256x512 .f32) (y : S4x4096x256.Idx) (i : S4x16384x256.Idx)
    (hx : ∀ d : Fin 512, x (ix2 (n0 := 4096) (n1 := 512) (y 1) d) = X (ix2 (n0 := 16384) (n1 := 512) (i 1) d))
    (hp : ∀ d : Fin 512, p (ix3 (n0 := 4) (n1 := 256) (n2 := 512) (y 0) (y 2) d) = P (ix3 (n0 := 4) (n1 := 256) (n2 := 512) (i 0) (i 2) d)) :
    blockCodes x p y = Cert.Lsh.codes X P i := by
  unfold blockCodes Cert.Lsh.codes Cert.Lsh.proj
  exact congrArg Cert.Lsh.bit (Finset.sum_congr rfl fun d _ => by rw [hx d, hp d])

/-- What point `t` writes back is its block of the code array of the argument arrays. -/
theorem flushed_eq (c : Dev nD) (t : Fin cfg0.N) :
    (dats m 0 c).flushed 2 t
      = ((cfg0.win 2).blk t).view.read (Elt Ideal) (Cert.Lsh.codes (V m c main_arg0) (V m c main_arg1)) := by
  rw [Cert.KernelIdeal.Value.flushed2, body_result]
  obtain ⟨e0, e1, e2, e3, e4, e5, e6⟩ := index_facts t
  funext y
  refine block_of_codes (V m c main_arg0) (V m c main_arg1) (iblk m c 0 t) (iblk m c 1 t)
    ((cfg0.win 2).xinj (grid0.coords t) y) (((cfg0.win 2).blk t).view.emb y) (fun d => ?_) (fun d => ?_)
  · show V m c main_arg0 (((cfg0.win 0).blk t).view.emb (ix2 (n0 := 4096) (n1 := 512) ⟨(y 1).val, (y 1).isLt⟩ d)) = _
    refine congrArg (V m c main_arg0) (funext fun a => Fin.ext ?_)
    match a with
    | ⟨0, _⟩ =>
      show win0_0.index t (0 : Fin 2) * 4096 + 1 * (y 1).val = win0_2.index t (1 : Fin 3) * 4096 + 1 * (y 1).val
      omega
    | ⟨1, _⟩ =>
      show win0_0.index t (1 : Fin 2) * 512 + 1 * d.val = d.val
      omega
  · show V m c main_arg1 (((cfg0.win 1).blk t).view.emb (ix3 (n0 := 4) (n1 := 256) (n2 := 512) ⟨(y 0).val, (y 0).isLt⟩ ⟨(y 2).val, (y 2).isLt⟩ d)) = _
    refine congrArg (V m c main_arg1) (funext fun a => Fin.ext ?_)
    match a with
    | ⟨0, _⟩ =>
      show win0_1.index t (0 : Fin 3) * 4 + 1 * (y 0).val = win0_2.index t (0 : Fin 3) * 4 + 1 * (y 0).val
      omega
    | ⟨1, _⟩ =>
      show win0_1.index t (1 : Fin 3) * 256 + 1 * (y 2).val = win0_2.index t (2 : Fin 3) * 256 + 1 * (y 2).val
      omega
    | ⟨2, _⟩ =>
      show win0_1.index t (2 : Fin 3) * 512 + 1 * d.val = d.val
      omega

/-- An index of the result is in point `t`'s block iff each coordinate is in the block's range on its axis. -/
theorem mem_blk (t : Fin cfg0.N) (i : S4x16384x256.Idx) :
    i ∈ ((cfg0.win 2).blk t).view.set ↔ ∀ a : Fin 3, win0_2.index t a * S4x4096x256.size a ≤ (i a).val
      ∧ (i a).val < win0_2.index t a * S4x4096x256.size a + S4x4096x256.size a := by
  show i ∈ ((View.whole main_v0).slice (win0_2.rect t)).set ↔ _
  rw [View.set_slice_whole, Rect.mem_set_unit]
  exact Iff.rfl

/-- Every index of the result lies in the block of the point that owns its row: row `n` belongs to point `n / 4096`. -/
theorem covered (i : S4x16384x256.Idx) :
    ∃ t : Fin cfg0.N, (cfg0.win 2).flush t = true ∧ i ∈ ((cfg0.win 2).blk t).view.set := by
  have hi0 : (i 0).val < 4 := (i 0).isLt
  have hi1 : (i 1).val < 16384 := (i 1).isLt
  have hi2 : (i 2).val < 256 := (i 2).isLt
  obtain ⟨t, ht⟩ := index_onto ⟨(i 1).val / 4096, by omega⟩
  have q0 : win0_2.index t (0 : Fin 3) = 0 := congrFun ht 0
  have q1 : win0_2.index t (1 : Fin 3) = (i 1).val / 4096 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 256 ≤ (i 2).val ∧ (i 2).val < win0_2.index t (2 : Fin 3) * 256 + 256; omega

/-- The result array after the run is the code array of the argument arrays as launched. -/
theorem final (c : Dev nD) :
    (dats m 0 c).arrAt 2 cfg0.N
      = Cert.Lsh.codes (m ((c : Thread nD τ).loc main_arg0)) (m ((c : Thread nD τ).loc main_arg1)) :=
  (dats m 0 c).arrAt_eq_of_cover 2 (Cert.Lsh.codes (V m c main_arg0) (V m c main_arg1))
    (fun t _ => flushed_eq m c t) covered

/-- Every weakly fair execution of the kernel terminates with the result array at the code array of its arguments and the
    arguments unchanged. -/
theorem run : θ_run defs (onTc (τ := τ) (main (F := Ideal))) ⟨m, fun _ => 0, ρ⟩ fun r => ∀ c : Dev nD,
      r.2.mem ((c : Thread nD τ).loc main_v0)
        = Cert.Lsh.codes (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Lsh.Kernel

end
-- ==== Proof.RefCodes.lean ====
/-
  The reference computes the hash codes.

  The reference contracts the hyperplanes [4, 256, 512] with the points [16384, 512] over their last axes, which gives the
  projections laid out [4, 256, 16384] with each product written hyperplane first,  p(t, h, d) · x(n, d);  it then swaps
  the last two axes to [4, 16384, 256], compares with a broadcast 0 and selects between a broadcast 0 and a broadcast 1.
  Read at an index (t, n, h) this is the hash bit of  Σ_d p(t, h, d) · x(n, d),  and the product of extended reals is
  commutative, so the sum is the projection of the specification term by term.
-/
import proofs.«117350_g42193758716157_cont_8to1_b_654_17_alg».proof.Proof.Gen.ReferenceIdeal.Read
import proofs.«117350_g42193758716157_cont_8to1_b_654_17_alg».proof.Proof.Codes

noncomputable section

open scoped BigOperators

namespace Cert.Lsh.Reference

open Cert.ReferenceIdeal Cert.ReferenceIdeal.Gen Cert.ReferenceIdeal.Read
open Idealize.ShloMosaic Idealize.ShloMosaic.ValueIdx

/-- Entry (t, n, h) of the transposed projections reads the hyperplane operand at (t, h, d). -/
theorem plane_index (i : S4x16384x256.Idx) (d : Fin 512) : lidx_main_v0 (idx_main_v1 i) d = ix3 (n0 := 4) (n1 := 256) (n2 := 512) (i 0) (i 2) d :=
  funext fun a => Fin.ext (by match a with | ⟨0, _⟩ => rfl | ⟨1, _⟩ => rfl | ⟨2, _⟩ => rfl)

/-- and the point operand at (n, d). -/
theorem point_index (i : S4x16384x256.Idx) (d : Fin 512) : ridx_main_v0 (idx_main_v1 i) d = ix2 (n0 := 16384) (n1 := 512) (i 1) d :=
  funext fun a => Fin.ext (by match a with | ⟨0, _⟩ => rfl | ⟨1, _⟩ => rfl)

/-- The reference's result stage is the code array of the specification. -/
theorem result_eq_codes (x : (⟨S16384x512, .f32⟩ : BufTy).Contents (Elt Ideal)) (p : (⟨S4x256x512, .f32⟩ : BufTy).Contents (Elt Ideal)) :
    val_main_v4 (F := Ideal) x p = Cert.Lsh.codes x p := by
  funext i
  rw [val_main_v4_apply, val_main_v3_apply, val_main_v1_apply, val_main_v0_apply, val_main_v2_apply, val_main_cst_apply,
    val_main_call0_v0_apply, val_main_cst_0_apply, val_main_call0_v1_apply, val_main_cst_1_apply]
  simp only [plane_index, point_index]
  show Cert.Lsh.bit (∑ d : Fin 512, p (ix3 (n0 := 4) (n1 := 256) (n2 := 512) (i 0) (i 2) d) * x (ix2 (n0 := 16384) (n1 := 512) (i 1) d))
    = Cert.Lsh.bit (Cert.Lsh.proj x p (i 0) (i 1) (i 2))
  exact congrArg Cert.Lsh.bit (Finset.sum_congr rfl fun d _ => mul_comm _ _)

end Cert.Lsh.Reference

end
-- ==== Proof.lean ====
/-
  Random-hyperplane hashing: for points x : [16384, 512] and four tables of 256 hyperplanes p : [4, 256, 512], the
  code of point n against hyperplane h of table t is 0 where the projection Σ_d x(n, d) · p(t, h, d) is negative and 1
  elsewhere; the result is the array [4, 16384, 256] of these codes.

  The kernel walks the points in four blocks of 4096 rows, keeps all hyperplanes resident, and at each block forms, table
  by table, the product of the block with the transposed hyperplane slab, compares it with 0 and writes 0 or 1. The
  reference contracts the hyperplanes with all the points at once, swaps the last two axes, compares with 0 and selects
  0 or 1. Read over the extended reals both are the same function of the arguments, entry by entry (`Cert.Lsh.codes`):
    * a block's product entry is the plain sum Σ_d x(r, d) · w(h, d), the accumulator being zero;
    * row 4096·t + r of the result only reads row 4096·t + r of the points, so the block a grid point writes back is the
      restriction of the whole code array, and the four blocks cover the result;
    * the reference's contraction writes each product hyperplane first, p · x, and the product of extended reals is
      commutative, so its sum is the same sum term by term.
  No law used here needs the inputs to be finite, so the precondition is never opened. The idealization rewrote no
  operation of the kernel, so there is nothing to preserve beyond the program's own text.
-/
import proofs.«117350_g42193758716157_cont_8to1_b_654_17_alg».proof.Defs
import proofs.«117350_g42193758716157_cont_8to1_b_654_17_alg».proof.Proof.Gen.Kernel
import proofs.«117350_g42193758716157_cont_8to1_b_654_17_alg».proof.Proof.Gen.Kernel.Skeleton
import proofs.«117350_g42193758716157_cont_8to1_b_654_17_alg».proof.Proof.Gen.Kernel.Launch
import proofs.«117350_g42193758716157_cont_8to1_b_654_17_alg».proof.Proof.Gen.Kernel.Points
import proofs.«117350_g42193758716157_cont_8to1_b_654_17_alg».proof.Proof.Gen.Kernel.Frame
import proofs.«117350_g42193758716157_cont_8to1_b_654_17_alg».proof.Proof.Gen.KernelIdeal
import proofs.«117350_g42193758716157_cont_8to1_b_654_17_alg».proof.Proof.Gen.KernelIdeal.Skeleton
import proofs.«117350_g42193758716157_cont_8to1_b_654_17_alg».proof.Proof.Gen.KernelIdeal.Launch
import proofs.«117350_g42193758716157_cont_8to1_b_654_17_alg».proof.Proof.Gen.KernelIdeal.Points
import proofs.«117350_g42193758716157_cont_8to1_b_654_17_alg».proof.Proof.Gen.KernelIdeal.Frame
import proofs.«117350_g42193758716157_cont_8to1_b_654_17_alg».proof.Proof.Gen.ReferenceIdeal
import proofs.«117350_g42193758716157_cont_8to1_b_654_17_alg».proof.Proof.Gen.Pre_finite_inputs
import proofs.«117350_g42193758716157_cont_8to1_b_654_17_alg».proof.Proof.Gen.KernelIdeal.Value
import proofs.«117350_g42193758716157_cont_8to1_b_654_17_alg».proof.Proof.Gen.ReferenceIdeal.Run
import proofs.«117350_g42193758716157_cont_8to1_b_654_17_alg».proof.Proof.Gen.ReferenceIdeal.Read
import proofs.«117350_g42193758716157_cont_8to1_b_654_17_alg».proof.Proof.KernelCodes
import proofs.«117350_g42193758716157_cont_8to1_b_654_17_alg».proof.Proof.RefCodes
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run, with the statement about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's result array and the reference's both end at the code
    array of those arguments. -/
theorem algebraic : Cert.algebraic_KernelIdeal_ReferenceIdeal := by
  intro m ρ m' ρ' _ hagree
  refine ⟨fun c => Cert.Lsh.codes (m ((c : Thread Cert.KernelIdeal.nD Cert.KernelIdeal.τ).loc Cert.KernelIdeal.main_arg0))
      (m ((c : Thread Cert.KernelIdeal.nD Cert.KernelIdeal.τ).loc Cert.KernelIdeal.main_arg1)), Cert.Lsh.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.Lsh.Reference.result_eq_codes, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
